-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S256x40 1) : IVec S_ 1 :=
  let main_c_5 : IVec S_ 1 := constantI S_ 1 1#1
  let main_v17 : IVec S_ 1 := (fun x v => Host.reduce IntOp.andi x v reducesTo_S256x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : FVec F S128x256 .f32) (main_arg2 : FVec F S256 .f32) (main_arg3 : FVec F S256x40 .f32) (main_arg4 : FVec F S40 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x40 .f32 := Host.absf main_arg3
  let main_cst_4 : FVec F S_ .f32 := constant S_ .f32 0x7F800000#32
  let main_v15 : FVec F S256x40 .f32 := broadcastInDim S256x40 ![] bcast_S_S256x40 main_cst_4
  let main_v16 : IVec S256x40 1 := cmpf .olt main_v14 main_v15
  fn_part1 (F := F) main_arg4 main_v13 main_v16
-- ==== Kernel.lean ====
abbrev S50000x128 : Shape := ⟨2, ![50000, 128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 75
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x40, .f32⟩
  | .hbm, ⟨4, _⟩ => ⟨S40, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x128, .bf16⟩
  | .hbm, ⟨49, _⟩ => ⟨S128x256, .bf16⟩
  | .hbm, ⟨50, _⟩ => ⟨S1x256, .f32⟩
  | .hbm, ⟨51, _⟩ => ⟨S50000x256, .f32⟩
  | .hbm, ⟨52, _⟩ => ⟨S50000x1, .f32⟩
  | .hbm, ⟨53, _⟩ => ⟨S50000x256, .f32⟩
  | .hbm, ⟨54, _⟩ => ⟨S50000x256, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x256, .f32⟩
  | .hbm, ⟨64, _⟩ => ⟨S_, .f32⟩
  | .hbm, ⟨65, _⟩ => ⟨S50000x256, .f32⟩
  | .hbm, ⟨66, _⟩ => ⟨S800000x1, .i32⟩
  | .hbm, ⟨67, _⟩ => ⟨S50000x256, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x256, .bf16⟩
  | .hbm, ⟨72, _⟩ => ⟨S256x40, .bf16⟩
  | .hbm, ⟨73, _⟩ => ⟨S1x40, .f32⟩
  | .hbm, ⟨74, _⟩ => ⟨S50000x40, .f32⟩
  | .local _ .vmem, ⟨0, _⟩ => ⟨S5000x128, .bf16⟩
  | .local _ .vmem, ⟨1, _⟩ => ⟨S5000x128, .bf16⟩
  | .local _ .vmem, ⟨2, _⟩ => ⟨S128x256, .bf16⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .bf16⟩
  | .local _ .vmem, ⟨7, _⟩ => ⟨S5000x256, .bf16⟩
  | .local _ .vmem, ⟨8, _⟩ => ⟨S256x40, .bf16⟩
  | .local _ .vmem, ⟨9, _⟩ => ⟨S1x40, .f32⟩
  | .local _ .vmem, ⟨10, _⟩ => ⟨S5000x40, .f32⟩
  | .local _ .vmem, ⟨11, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x40 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bitsLt_bf16_f32 : FTy.bits .bf16 < FTy.bits .f32
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  shapeCasts_S40_S1x40 : S40.ShapeCasts S1x40
  shapeCasts_S5000x256_S5000x256 : S5000x256.ShapeCasts S5000x256
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x40_S5000x40_1_0_0_1_n_n_wf : DotDims.WF S5000x256 S256x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .bf16 = 32 ∨ (Rect.block (s := S50000x256) S5000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x40.size a ≤ S256x40.size a
  hwx1_1 : ∀ i : grid1.Coords, EltTy.bits .bf16 = 32 ∨ (Rect.block (s := S256x40) S256x40.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x40.size a ≤ S1x40.size a
  hwx1_2 : ∀ i : grid1.Coords, EltTy.bits .f32 = 32 ∨ (Rect.block (s := S1x40) S1x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S50000x40.size a
  hwx1_3 : ∀ i : grid1.Coords, EltTy.bits .f32 = 32 ∨ (Rect.block (s := S50000x40) S5000x40.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf

abbrev win0_0 : Pipeline.Window sig grid0 :=
  Pipeline.Window.ofSpec (Memref.whole main_v31) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S256x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x40 : Shape := ⟨2, ![50000, 40]⟩
abbrev S1x40 : Shape := ⟨2, ![1, 40]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x40, .f32⟩
  | .hbm, ⟨4, _⟩ => ⟨S40, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x256, .f32⟩
  | .hbm, ⟨49, _⟩ => ⟨S1x256, .f32⟩
  | .hbm, ⟨50, _⟩ => ⟨S50000x256, .f32⟩
  | .hbm, ⟨51, _⟩ => ⟨S50000x256, .f32⟩
  | .hbm, ⟨52, _⟩ => ⟨S_, .f32⟩
  | .hbm, ⟨53, _⟩ => ⟨S50000x256, .f32⟩
  | .hbm, ⟨54, _⟩ => ⟨S50000x256, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000x1, .f32⟩
  | .hbm, ⟨78, _⟩ => ⟨S50000x256, .f32⟩
  | .hbm, ⟨79, _⟩ => ⟨S50000x256, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x256, .f32⟩
  | .hbm, ⟨89, _⟩ => ⟨S_, .f32⟩
  | .hbm, ⟨90, _⟩ => ⟨S50000x256, .f32⟩
  | .hbm, ⟨91, _⟩ => ⟨S800000x1, .i32⟩
  | .hbm, ⟨92, _⟩ => ⟨S50000x256, .f32⟩
  | .hbm, ⟨93, _⟩ => ⟨S50000x1, .f32⟩
  | .hbm, ⟨94, _⟩ => ⟨S50000x256, .f32⟩
  | .hbm, ⟨95, _⟩ => ⟨S50000x256, .f32⟩
  | .hbm, ⟨96, _⟩ => ⟨S50000x40, .f32⟩
  | .hbm, ⟨97, _⟩ => ⟨S1x40, .f32⟩
  | .hbm, ⟨98, _⟩ => ⟨S50000x40, .f32⟩
  | .hbm, ⟨99, _⟩ => ⟨S50000x40, .f32⟩
  | .hbm, ⟨100, _⟩ => ⟨S_, .f32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x40, .f32⟩
  | .hbm, ⟨107, _⟩ => ⟨S50000x40, .f32⟩
  | .hbm, ⟨108, _⟩ => ⟨S50000x40, .f32⟩
  | .hbm, ⟨109, _⟩ => ⟨S_, .f32⟩
  | .hbm, ⟨110, _⟩ => ⟨S50000, .f32⟩
  | .hbm, ⟨111, _⟩ => ⟨S50000x1, .f32⟩
  | .hbm, ⟨112, _⟩ => ⟨S50000x1, .f32⟩
  | .hbm, ⟨113, _⟩ => ⟨S50000x40, .f32⟩
  | .hbm, ⟨114, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_cst_13 : Ref sig .tc := ⟨.hbm, 71, rfl⟩
abbrev main_v47 : Ref sig .tc := ⟨.hbm, 72, rfl⟩
abbrev main_v48 : Ref sig .tc := ⟨.hbm, 73, rfl⟩
abbrev main_cst_14 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_15 : Ref sig .tc := ⟨.hbm, 80, rfl⟩
abbrev main_v54 : Ref sig .tc := ⟨.hbm, 81, rfl⟩
abbrev main_v55 : Ref sig .tc := ⟨.hbm, 82, rfl⟩
abbrev main_c_16 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_17 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call1_cst : Ref sig .tc := ⟨.hbm, 100, rfl⟩
abbrev main_call1_v0 : Ref sig .tc := ⟨.hbm, 101, rfl⟩
abbrev main_call1_cst_0 : Ref sig .tc := ⟨.hbm, 102, rfl⟩
abbrev main_call1_v1 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_v6 : Ref sig .tc := ⟨.hbm, 108, rfl⟩
abbrev main_call1_cst_1 : Ref sig .tc := ⟨.hbm, 109, rfl⟩
abbrev main_call1_v7 : Ref sig .tc := ⟨.hbm, 110, rfl⟩
abbrev main_call1_v8 : Ref sig .tc := ⟨.hbm, 111, rfl⟩
abbrev main_call1_v9 : Ref sig .tc := ⟨.hbm, 112, rfl⟩
abbrev main_call1_v10 : Ref sig .tc := ⟨.hbm, 113, rfl⟩
abbrev main_v71 : Ref sig .tc := ⟨.hbm, 114, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x40_S50000x40_1_0_0_1_n_n_wf : DotDims.WF S50000x256 S256x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.KernelRun.lean ====
/-
  The idealized kernel's run with its result named.

  @main is four segments: a stretch of host operations, the first region, a second stretch, the second region. Every
  weakly fair execution ends with each unscoped buffer of a core at the contents the last boundary names: the
  arguments as launched, and the result buffer at what the second region's write-backs leave in it.
-/
import proofs.«129245_j16896401342481_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_result : θ_run defs (onTc (τ := τ) (main (F := F))) ⟨m, fun _ => 0, ρ⟩ (fun r => ∀ c : Dev nD,
      r.2.mem ((c.tc : Thread nD τ).loc main_v54) = W4 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v54 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Result

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibDenseRow.lean ====
/-
  A dense layer of a graph network read at an entry, in the two spellings a program gives it.

  For a feature matrix x : [n, K], weights w : [K, N] and a bias row b : [1, N], entry (r, j) of the layer is
  (∑ k, x (r, k) · w (k, j)) + b (0, j). A vector program computes it as a matrix product into the zero
  accumulator plus the bias row spread over the n rows; a host program as a dot_general plus the bias row
  broadcast along axis 0. Both are that sum at every entry. The same holds for the bias step alone,
  x (r, j) + b (0, j). A bias row that is zero everywhere adds nothing, on every extended real.
  A vector [N] set under a unit axis by a reshape or by a broadcast is the same row.
-/
import Idealize.ShloMosaic.Lib.ValueIdx
import Idealize.ShloMosaic.Lib.ValueLayout
import Idealize.ShloMosaic.Lib.Pipeline.Value
import Idealize.ShloMosaic.PureOps.Ideal.Laws
import proofs.«129245_j16896401342481_1_alg».proof.Proof.LibContract

noncomputable section

open scoped BigOperators

namespace Idealize.ShloMosaic.GcnDense

open Idealize.ShloMosaic Idealize.ShloMosaic.ValueIdx

/-- Entry (r, j) of x · w + b for a bias row b : [1, N]. -/
def entry {n K N : ℕ} (x : (⟨2, ![n, K]⟩ : Shape).Idx → EReal) (w : (⟨2, ![K, N]⟩ : Shape).Idx → EReal)
    (b : (⟨2, ![1, N]⟩ : Shape).Idx → EReal) (r : Fin n) (j : Fin N) : EReal :=
  (∑ k : Fin K, x (ix2 r k) * w (ix2 k j)) + b (ix2 (0 : Fin 1) j)

/-- An entry of the layer depends on row r of x, column j of w and entry j of the bias only, whatever the row counts. -/
theorem entry_congr {n n' K N : ℕ} (x : (⟨2, ![n, K]⟩ : Shape).Idx → EReal) (w : (⟨2, ![K, N]⟩ : Shape).Idx → EReal)
    (b : (⟨2, ![1, N]⟩ : Shape).Idx → EReal) (x' : (⟨2, ![n', K]⟩ : Shape).Idx → EReal) (w' : (⟨2, ![K, N]⟩ : Shape).Idx → EReal)
    (b' : (⟨2, ![1, N]⟩ : Shape).Idx → EReal) (r : Fin n) (r' : Fin n') (j : Fin N)
    (h0 : ∀ k, x (ix2 r k) = x' (ix2 r' k)) (h1 : ∀ k, w (ix2 k j) = w' (ix2 k j))
    (h2 : b (ix2 (0 : Fin 1) j) = b' (ix2 (0 : Fin 1) j)) :
    entry x w b r j = entry x' w' b' r' j := by
  unfold entry
  rw [h2]
  exact congrArg (· + b' (ix2 (0 : Fin 1) j)) (Finset.sum_congr rfl fun k _ => by rw [h0 k, h1 k])

/-- A bias row broadcast along axis 0 reads, at (r, j), the row's entry j. -/
theorem bias_rows_apply {α : Type} {n N : ℕ} (h2 : (⟨2, ![1, N]⟩ : Shape).BroadcastsInDim ⟨2, ![n, N]⟩ ![0, 1])
    (b : (⟨2, ![1, N]⟩ : Shape).Idx → α) (r : Fin n) (j : Fin N) :
    broadcastInDim (⟨2, ![n, N]⟩ : Shape) ![0, 1] h2 b (ix2 r j) = b (ix2 (0 : Fin 1) j) := by
  refine broadcastInDim_apply _ h2 b (ix2 r j) (ix2 (0 : Fin 1) j) (fun x => ?_)
  match x with
  | ⟨0, _⟩ =>
    show 0 = if (1 : Nat) = 1 then 0 else r.val
    rw [if_pos rfl]
  | ⟨1, _⟩ =>
    show j.val = if N = 1 then 0 else j.val
    split_ifs with h
    · have := j.isLt; omega
    · rfl

/-- The layer as a vector program computes it. -/
theorem kernel_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (hc : (⟨2, ![1, N]⟩ : Shape).ShapeCasts ⟨2, ![1, N]⟩) (hb : (⟨2, ![1, N]⟩ : Shape).Broadcasts ⟨2, ![n, N]⟩)
    (r : Fin n) (j : Fin N) :
    addf (matmul D prec x w (constant (F := Ideal) (⟨2, ![n, N]⟩ : Shape) .f32 0x00000000#32))
        (broadcastTo (⟨2, ![n, N]⟩ : Shape) (shapeCast (⟨2, ![1, N]⟩ : Shape) b hc) hb) (ix2 r j)
      = entry x w b r j := by
  rw [addf_apply, broadcastTo_1b_ab_apply, shapeCast_self]
  refine congrArg (· + b (ix2 (0 : Fin 1) j)) ?_
  refine (Ideal.matmul_constant_zero_apply D prec x w (ix2 r j)).trans ?_
  exact Contract2.sum_contr_eq_sum_fin D hr hs hlc hrc hl0 hr1 x w (ix2 r j)

/-- The layer as a host program computes it. -/
theorem host_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (h2 : (⟨2, ![1, N]⟩ : Shape).BroadcastsInDim ⟨2, ![n, N]⟩ ![0, 1])
    (r : Fin n) (j : Fin N) :
    addf (Host.dotGeneral D prec x w) (broadcastInDim (⟨2, ![n, N]⟩ : Shape) ![0, 1] h2 b) (ix2 r j)
      = entry x w b r j := by
  rw [addf_apply, bias_rows_apply h2 b r j]
  refine congrArg (· + b (ix2 (0 : Fin 1) j)) ?_
  simp only [Host.dotGeneral]
  refine (Ideal.dotGeneral_apply D prec _ x w (ix2 r j)).trans ?_
  exact Contract2.sum_contr_eq_sum_fin D hr hs hlc hrc hl0 hr1 x w (ix2 r j)

/-- The bias step as a vector program computes it: x (r, j) + b (0, j). -/
theorem kernel_bias_apply {n N : ℕ}
    (x : FVec Ideal (⟨2, ![n, N]⟩ : Shape) .f32) (b : FVec Ideal (⟨2, ![1, N]⟩ : Shape) .f32)
    (hx : (⟨2, ![n, N]⟩ : Shape).ShapeCasts ⟨2, ![n, N]⟩)
    (hc : (⟨2, ![1, N]⟩ : Shape).ShapeCasts ⟨2, ![1, N]⟩) (hb : (⟨2, ![1, N]⟩ : Shape).Broadcasts ⟨2, ![n, N]⟩)
    (r : Fin n) (j : Fin N) :
    addf (shapeCast (⟨2, ![n, N]⟩ : Shape) x hx)
        (broadcastTo (⟨2, ![n, N]⟩ : Shape) (shapeCast (⟨2, ![1, N]⟩ : Shape) b hc) hb) (ix2 r j)
      = x (ix2 r j) + b (ix2 (0 : Fin 1) j) := by
  rw [addf_apply, broadcastTo_1b_ab_apply, shapeCast_self, shapeCast_self]

/-- The bias step as a host program computes it. -/
theorem host_bias_apply {n N : ℕ}
    (x : FVec Ideal (⟨2, ![n, N]⟩ : Shape) .f32) (b : FVec Ideal (⟨2, ![1, N]⟩ : Shape) .f32)
    (h2 : (⟨2, ![1, N]⟩ : Shape).BroadcastsInDim ⟨2, ![n, N]⟩ ![0, 1]) (r : Fin n) (j : Fin N) :
    addf x (broadcastInDim (⟨2, ![n, N]⟩ : Shape) ![0, 1] h2 b) (ix2 r j) = x (ix2 r j) + b (ix2 (0 : Fin 1) j) := by
  rw [addf_apply, bias_rows_apply h2 b r j]

/-- A vector set under a unit axis by a reshape is the vector set there by a broadcast. -/
theorem row_reshape_eq_broadcast {α : Type} {N : ℕ} (v : (⟨1, ![N]⟩ : Shape).Idx → α)
    (hc : (⟨1, ![N]⟩ : Shape).ShapeCasts ⟨2, ![1, N]⟩) (h1 : (⟨1, ![N]⟩ : Shape).BroadcastsInDim ⟨2, ![1, N]⟩ ![1]) :
    shapeCast (⟨2, ![1, N]⟩ : Shape) v hc = broadcastInDim (⟨2, ![1, N]⟩ : Shape) ![1] h1 v := by
  funext i
  obtain ⟨p, q, rfl⟩ : ∃ (p : Fin 1) (q : Fin N), i = ix2 p q := ⟨i 0, i 1, eq_ix2 i⟩
  have hp : p = 0 := Subsingleton.elim _ _
  subst hp
  rw [shapeCast_a_1a_apply]
  refine (broadcastInDim_apply _ h1 v (ix2 (0 : Fin 1) q) (ix1 q) (fun x => ?_)).symm
  match x with
  | ⟨0, _⟩ =>
    show q.val = if N = 1 then 0 else q.val
    split_ifs with h
    · have := q.isLt; omega
    · rfl

/-- Adding a bias row that is the zero constant, spread from a scalar to [N], set under a unit axis and broadcast
    down the rows, changes nothing: x + 0 = x on every extended real. -/
theorem add_zero_row {n N : ℕ} (x : FVec Ideal (⟨2, ![n, N]⟩ : Shape) .f32)
    (h0 : (⟨0, ![]⟩ : Shape).BroadcastsInDim ⟨1, ![N]⟩ ![])
    (hc : (⟨1, ![N]⟩ : Shape).ShapeCasts ⟨2, ![1, N]⟩)
    (h2 : (⟨2, ![1, N]⟩ : Shape).BroadcastsInDim ⟨2, ![n, N]⟩ ![0, 1]) :
    addf x (broadcastInDim (⟨2, ![n, N]⟩ : Shape) ![0, 1] h2
      (shapeCast (⟨2, ![1, N]⟩ : Shape)
        (broadcastInDim (⟨1, ![N]⟩ : Shape) ![] h0 (constant (F := Ideal) (⟨0, ![]⟩ : Shape) .f32 0x00000000#32)) hc)) = x := by
  funext i
  obtain ⟨r, j, rfl⟩ : ∃ (r : Fin n) (j : Fin N), i = ix2 r j := ⟨i 0, i 1, eq_ix2 i⟩
  rw [addf_apply, bias_rows_apply h2 _ r j, shapeCast_a_1a_apply]
  rw [broadcastInDim_apply _ h0 _ (ix1 j) (fun a => a.elim0) (fun a => a.elim0)]
  rw [constant_apply, Ideal.ofBits_zero_f32, add_zero]

end Idealize.ShloMosaic.GcnDense

end
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibHostRows.lean ====
/-
  The host's reductions along the rows of a matrix, read at a row, on the extended reals and for any extents.

  A `stablehlo.reduce` over axis 1 of an [n, k] matrix whose body takes the larger of two values is, at row r, the
  fold of max from the initial value over the row's k entries; one whose body adds is the initial value plus the sum
  of the row's k entries.
-/
import Idealize.ShloMosaic.PureOps.Ideal.Laws
import Idealize.ShloMosaic.Lib.ValueIdx

noncomputable section

open scoped BigOperators

namespace Idealize.ShloMosaic.HostRows

open Idealize.ShloMosaic Idealize.ShloMosaic.ValueIdx

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- On the extended reals the float maximum is the order's. -/
theorem maximumf_eq_max : (FloatOps.maximumf (F := Ideal) (φ := .f32)) = (max : EReal → EReal → EReal) := by
  funext x y; rfl

/-- A host reduce with max over the columns of an `[n, k]` matrix, at row `r`: the fold of max over that row. -/
theorem reduce_max_rows_apply {n k : ℕ} (z : (⟨2, ![n, k]⟩ : Shape).Idx → EReal) {u : Shape} (init : u.Idx → EReal)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduce (max : EReal → EReal → EReal) z init h' hu (ix1 r)
      = (Finset.univ : Finset (Fin k)).fold max (init (Shape.Idx.first hu)) (fun c => z (ix2 r c)) :=
  (Host.reduce_eq_fold_single max z init h' h hu (ix1 r)).trans
    (Finset.fold_congr fun c _ => congrArg z (lift_rows h r c))

/-- A host reduce with add over the columns of an `[n, k]` matrix, at row `r`: the initial value plus the row's sum. -/
theorem reduceAdd_rows_apply {n k : ℕ} (x : FVec Ideal ⟨2, ![n, k]⟩ .f32) {u : Shape} (init : u.Idx → EReal)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduceAdd (F := Ideal) (φ := .f32) x init h' hu (ix1 r) = init (Shape.Idx.first hu) + ∑ c : Fin k, x (ix2 r c) := by
  show Ideal.hostReduceAdd h' x (init (Shape.Idx.first hu)) (ix1 r) = _
  rw [Ideal.hostReduceAdd_single h' h]
  exact congrArg (init (Shape.Idx.first hu) + ·) (Finset.sum_congr rfl fun c _ => congrArg x (lift_rows h r c))

end Idealize.ShloMosaic.HostRows

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibLogSoftmaxRows.lean ====
/-
  The shifted log-softmax of the rows of a matrix, read at an entry, in the two spellings a program gives it.

  For a : [n, N] and a row r let M r be the fold of max from −∞ over the row's N entries. The shifted log-softmax of
  row r at column j is (a (r, j) − M r) − log (∑ j', exp (a (r, j') − M r)). A vector program computes it with a lane
  maximum and a lane sum over the columns, each kept as an [n, 1] column and broadcast back along the rows; a host
  program with a reduce by max from −∞ (and one more max with −∞, which changes nothing), a reduce by add from
  zero, and broadcasts through [n, 1]. Both are that expression at every entry, on every extended real.
-/
import Idealize.ShloMosaic.Lib.ValueIdx
import Idealize.ShloMosaic.Lib.Pipeline.Value
import Idealize.ShloMosaic.PureOps.Ideal.Laws
import proofs.«129245_j16896401342481_1_alg».proof.Proof.LibGram
import proofs.«129245_j16896401342481_1_alg».proof.Proof.LibRowSum
import proofs.«129245_j16896401342481_1_alg».proof.Proof.LibHostRows
import proofs.«129245_j16896401342481_1_alg».proof.Proof.LibColumn
import proofs.«129245_j16896401342481_1_alg».proof.Proof.LibKeepdims

noncomputable section

open scoped BigOperators

namespace Idealize.ShloMosaic.LogSoftmaxRows

open Idealize.ShloMosaic Idealize.ShloMosaic.ValueIdx

variable {n n' N : ℕ}

/-- The largest entry of row r, folded from −∞. -/
def rowTop (a : (⟨2, ![n, N]⟩ : Shape).Idx → EReal) (r : Fin n) : EReal :=
  (Finset.univ : Finset (Fin N)).fold max (Ideal.ofBits .f32 0xFF800000#32) (fun c => a (ix2 r c))

/-- Entry (r, j) of the shifted log-softmax of the rows of a. -/
def shifted (a : (⟨2, ![n, N]⟩ : Shape).Idx → EReal) (r : Fin n) (j : Fin N) : EReal :=
  (a (ix2 r j) - rowTop a r) - Ideal.log (∑ c : Fin N, Ideal.exp (a (ix2 r c) - rowTop a r))

/-- Row r of the result depends on row r of the operand only. -/
theorem shifted_congr (a : (⟨2, ![n, N]⟩ : Shape).Idx → EReal) (a' : (⟨2, ![n', N]⟩ : Shape).Idx → EReal)
    (r : Fin n) (r' : Fin n') (j : Fin N) (h : ∀ c, a (ix2 r c) = a' (ix2 r' c)) :
    shifted a r j = shifted a' r' j := by
  have hm : rowTop a r = rowTop a' r' := by
    unfold rowTop
    exact Finset.fold_congr fun c _ => h c
  unfold shifted
  rw [hm, h j]
  exact congrArg (fun s => a' (ix2 r' j) - rowTop a' r' - Ideal.log s) (Finset.sum_congr rfl fun c _ => by rw [h c])

theorem log_apply {s : Shape} (v : FVec Ideal s .f32) (i : s.Idx) : log v i = Ideal.log (v i) := rfl
theorem exp_apply {s : Shape} (v : FVec Ideal s .f32) (i : s.Idx) : exp v i = Ideal.exp (v i) := rfl
theorem host_log_apply {s : Shape} (v : FVec Ideal s .f32) (i : s.Idx) : Host.log v i = Ideal.log (v i) := rfl
theorem host_exp_apply {s : Shape} (v : FVec Ideal s .f32) (i : s.Idx) : Host.exp v i = Ideal.exp (v i) := rfl

/-- The row maximum as a vector program keeps it: a lane maximum, viewed as a column, broadcast along the row. -/
theorem kernel_top_apply (a : FVec Ideal ⟨2, ![n, N]⟩ .f32)
    (h : (⟨2, ![n, N]⟩ : Shape).Reduces [1] ⟨1, ![n]⟩) (hφ : FKind.Formats .f32)
    (hmax : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, N]⟩)
    (r : Fin n) (c : Fin N) :
    broadcastTo ⟨2, ![n, N]⟩ (shapeCast ⟨2, ![n, 1]⟩ (multiReduction .maximumf [1] ⟨1, ![n]⟩ a 0xFF800000#32 h hφ hmax) hc) hb (ix2 r c)
      = rowTop a r := by
  rw [broadcastTo_a1_ab_apply, shapeCast_a_a1_apply, Gram.multiReduction_max_rows_apply]
  rfl

/-- The shifted log-softmax as a vector program computes it. -/
theorem kernel_apply (a : FVec Ideal ⟨2, ![n, N]⟩ .f32)
    (h : (⟨2, ![n, N]⟩ : Shape).Reduces [1] ⟨1, ![n]⟩) (hφ : FKind.Formats .f32)
    (hmax : (0xFF800000#32 : BitVec 32) = FKind.maximumf.neutral .f32 hφ)
    (hadd : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, N]⟩)
    (r : Fin n) (j : Fin N) :
    subf (subf a (broadcastTo ⟨2, ![n, N]⟩ (shapeCast ⟨2, ![n, 1]⟩ (multiReduction .maximumf [1] ⟨1, ![n]⟩ a 0xFF800000#32 h hφ hmax) hc) hb))
      (broadcastTo ⟨2, ![n, N]⟩ (log (shapeCast ⟨2, ![n, 1]⟩ (multiReduction .add [1] ⟨1, ![n]⟩
        (exp (subf a (broadcastTo ⟨2, ![n, N]⟩ (shapeCast ⟨2, ![n, 1]⟩ (multiReduction .maximumf [1] ⟨1, ![n]⟩ a 0xFF800000#32 h hφ hmax) hc) hb)))
        0x00000000#32 h hφ hadd) hc)) hb) (ix2 r j)
      = shifted a r j := by
  rw [subf_apply, subf_apply, kernel_top_apply a h hφ hmax hc hb r j, broadcastTo_a1_ab_apply, log_apply,
    shapeCast_a_a1_apply, multiReduction_add_rows_apply]
  unfold shifted
  refine congrArg (fun s => a (ix2 r j) - rowTop a r - Ideal.log s) (Finset.sum_congr rfl fun c _ => ?_)
  rw [exp_apply, subf_apply, kernel_top_apply a h hφ hmax hc hb r c]

/-- The row maximum as a host program keeps it: a reduce by max from −∞, one more max with −∞, stood up as a column
    and spread along the row. -/
theorem host_top_apply (a : FVec Ideal ⟨2, ![n, N]⟩ .f32)
    (h' : (⟨2, ![n, N]⟩ : Shape).ReducesTo [1] ⟨1, ![n]⟩) (h : (⟨2, ![n, N]⟩ : Shape).Reduces [1] ⟨1, ![n]⟩)
    (hu : 0 < (⟨0, ![]⟩ : Shape).numel)
    (g0 : (⟨0, ![]⟩ : Shape).BroadcastsInDim ⟨1, ![n]⟩ ![])
    (g1 : (⟨1, ![n]⟩ : Shape).BroadcastsInDim ⟨2, ![n, 1]⟩ ![0])
    (g2 : (⟨2, ![n, 1]⟩ : Shape).BroadcastsInDim ⟨2, ![n, N]⟩ ![0, 1])
    (r : Fin n) (c : Fin N) :
    broadcastInDim (⟨2, ![n, N]⟩ : Shape) ![0, 1] g2 (broadcastInDim (⟨2, ![n, 1]⟩ : Shape) ![0] g1
      (maximumf (broadcastInDim (⟨1, ![n]⟩ : Shape) ![] g0 (constant (F := Ideal) (⟨0, ![]⟩ : Shape) .f32 0xFF800000#32))
        (Host.reduce (FloatOps.maximumf (F := Ideal) (φ := .f32)) a (constant (F := Ideal) (⟨0, ![]⟩ : Shape) .f32 0xFF800000#32) h' hu))) (ix2 r c)
      = rowTop a r := by
  rw [Keepdims.rows_apply g1 g2 _ r c, maximumf_apply,
    broadcastInDim_apply _ g0 _ (ix1 r) (fun x => x.elim0) (fun x => x.elim0), constant_apply,
    HostRows.maximumf_eq_max, HostRows.reduce_max_rows_apply a _ h' h hu r, constant_apply]
  exact max_eq_right ((Finset.le_fold_max _).mpr (Or.inl le_rfl))

/-- The shifted log-softmax as a host program computes it. -/
theorem host_apply (a : FVec Ideal ⟨2, ![n, N]⟩ .f32)
    (h' : (⟨2, ![n, N]⟩ : Shape).ReducesTo [1] ⟨1, ![n]⟩) (h : (⟨2, ![n, N]⟩ : Shape).Reduces [1] ⟨1, ![n]⟩)
    (hu : 0 < (⟨0, ![]⟩ : Shape).numel)
    (g0 : (⟨0, ![]⟩ : Shape).BroadcastsInDim ⟨1, ![n]⟩ ![])
    (g1 : (⟨1, ![n]⟩ : Shape).BroadcastsInDim ⟨2, ![n, 1]⟩ ![0])
    (g2 : (⟨2, ![n, 1]⟩ : Shape).BroadcastsInDim ⟨2, ![n, N]⟩ ![0, 1])
    (r : Fin n) (j : Fin N) :
    subf (subf a (broadcastInDim (⟨2, ![n, N]⟩ : Shape) ![0, 1] g2 (broadcastInDim (⟨2, ![n, 1]⟩ : Shape) ![0] g1
        (maximumf (broadcastInDim (⟨1, ![n]⟩ : Shape) ![] g0 (constant (F := Ideal) (⟨0, ![]⟩ : Shape) .f32 0xFF800000#32))
          (Host.reduce (FloatOps.maximumf (F := Ideal) (φ := .f32)) a (constant (F := Ideal) (⟨0, ![]⟩ : Shape) .f32 0xFF800000#32) h' hu)))))
      (broadcastInDim (⟨2, ![n, N]⟩ : Shape) ![0, 1] g2 (Host.log (broadcastInDim (⟨2, ![n, 1]⟩ : Shape) ![0] g1
        (Host.reduceAdd (F := Ideal) (φ := .f32)
          (Host.exp (subf a (broadcastInDim (⟨2, ![n, N]⟩ : Shape) ![0, 1] g2 (broadcastInDim (⟨2, ![n, 1]⟩ : Shape) ![0] g1
            (maximumf (broadcastInDim (⟨1, ![n]⟩ : Shape) ![] g0 (constant (F := Ideal) (⟨0, ![]⟩ : Shape) .f32 0xFF800000#32))
              (Host.reduce (FloatOps.maximumf (F := Ideal) (φ := .f32)) a (constant (F := Ideal) (⟨0, ![]⟩ : Shape) .f32 0xFF800000#32) h' hu))))))
          (constant (F := Ideal) (⟨0, ![]⟩ : Shape) .f32 0x00000000#32) h' hu)))) (ix2 r j)
      = shifted a r j := by
  rw [subf_apply, subf_apply, host_top_apply a h' h hu g0 g1 g2 r j]
  rw [broadcastInDim_apply _ g2 _ (ix2 r j) (ix2 r (0 : Fin 1)) (fun x => by
    match x with
    | ⟨0, _⟩ =>
      show r.val = if n = 1 then 0 else r.val
      split_ifs with hn
      · have := r.isLt; omega
      · rfl
    | ⟨1, _⟩ =>
      show 0 = if (1 : Nat) = 1 then 0 else j.val
      rw [if_pos rfl])]
  rw [host_log_apply, Keepdims.column_apply g1 _ r, HostRows.reduceAdd_rows_apply _ _ h' h hu r, constant_apply, Ideal.ofBits_zero_f32, zero_add]
  unfold shifted
  refine congrArg (fun s => a (ix2 r j) - rowTop a r - Ideal.log s) (Finset.sum_congr rfl fun c _ => ?_)
  rw [host_exp_apply, subf_apply, host_top_apply a h' h hu g0 g1 g2 r c]

end Idealize.ShloMosaic.LogSoftmaxRows

end
-- ==== Proof.Layers.lean ====
/-
  The two layers of the graph network, as functions of whole arrays.

  For a feature matrix x : [n, K], weights w : [K, N] and a bias row b : [1, N], write a (r, j) for the dense
  layer's entry (∑ k, x (r, k) · w (k, j)) + b (0, j). The first layer keeps the larger of a (r, j) and zero.
  The second is the row-wise log-softmax in its shifted form: with M r the largest entry of row r (a fold of max
  from −∞), entry (r, j) is (a (r, j) − M r) − log (∑ j', exp (a (r, j') − M r)).
  Every entry depends on row r of x only, so a block of rows of the result is the same function of that block of
  rows of x.
-/
import Idealize.ShloMosaic.Lib.ValueIdx
import Idealize.ShloMosaic.PureOps.Ideal.Laws
import proofs.«129245_j16896401342481_1_alg».proof.Proof.LibDenseRow
import proofs.«129245_j16896401342481_1_alg».proof.Proof.LibLogSoftmaxRows

noncomputable section

open scoped BigOperators

namespace Idealize.ShloMosaic.GcnLayers

open Idealize.ShloMosaic Idealize.ShloMosaic.ValueIdx Idealize.ShloMosaic.GcnDense Idealize.ShloMosaic.LogSoftmaxRows

variable {n n' K N : ℕ}

/-- The dense layer x · w + b as an array. -/
def denseLayer (x : (⟨2, ![n, K]⟩ : Shape).Idx → EReal) (w : (⟨2, ![K, N]⟩ : Shape).Idx → EReal)
    (b : (⟨2, ![1, N]⟩ : Shape).Idx → EReal) : (⟨2, ![n, N]⟩ : Shape).Idx → EReal :=
  fun i => entry x w b (i 0) (i 1)

theorem denseLayer_apply (x : (⟨2, ![n, K]⟩ : Shape).Idx → EReal) (w : (⟨2, ![K, N]⟩ : Shape).Idx → EReal)
    (b : (⟨2, ![1, N]⟩ : Shape).Idx → EReal) (r : Fin n) (j : Fin N) :
    denseLayer x w b (ix2 r j) = entry x w b r j := rfl

/-- Entry (r, j) of the first layer: the larger of the dense layer's entry and zero. -/
def reluEntry (x : (⟨2, ![n, K]⟩ : Shape).Idx → EReal) (w : (⟨2, ![K, N]⟩ : Shape).Idx → EReal)
    (b : (⟨2, ![1, N]⟩ : Shape).Idx → EReal) (r : Fin n) (j : Fin N) : EReal :=
  max (entry x w b r j) (Ideal.ofBits .f32 0x00000000#32)

/-- The first layer: relu (x · w + b). -/
def denseRelu (x : (⟨2, ![n, K]⟩ : Shape).Idx → EReal) (w : (⟨2, ![K, N]⟩ : Shape).Idx → EReal)
    (b : (⟨2, ![1, N]⟩ : Shape).Idx → EReal) : (⟨2, ![n, N]⟩ : Shape).Idx → EReal :=
  fun i => reluEntry x w b (i 0) (i 1)

/-- Entry (r, j) of the shifted log-softmax of row r of x · w + b. -/
def logSoftmaxEntry (x : (⟨2, ![n, K]⟩ : Shape).Idx → EReal) (w : (⟨2, ![K, N]⟩ : Shape).Idx → EReal)
    (b : (⟨2, ![1, N]⟩ : Shape).Idx → EReal) (r : Fin n) (j : Fin N) : EReal :=
  shifted (denseLayer x w b) r j

/-- The second layer: log_softmax (x · w + b) along each row. -/
def denseLogSoftmax (x : (⟨2, ![n, K]⟩ : Shape).Idx → EReal) (w : (⟨2, ![K, N]⟩ : Shape).Idx → EReal)
    (b : (⟨2, ![1, N]⟩ : Shape).Idx → EReal) : (⟨2, ![n, N]⟩ : Shape).Idx → EReal :=
  fun i => logSoftmaxEntry x w b (i 0) (i 1)

theorem denseRelu_apply (x : (⟨2, ![n, K]⟩ : Shape).Idx → EReal) (w : (⟨2, ![K, N]⟩ : Shape).Idx → EReal)
    (b : (⟨2, ![1, N]⟩ : Shape).Idx → EReal) (r : Fin n) (j : Fin N) :
    denseRelu x w b (ix2 r j) = reluEntry x w b r j := rfl

theorem denseLogSoftmax_apply (x : (⟨2, ![n, K]⟩ : Shape).Idx → EReal) (w : (⟨2, ![K, N]⟩ : Shape).Idx → EReal)
    (b : (⟨2, ![1, N]⟩ : Shape).Idx → EReal) (r : Fin n) (j : Fin N) :
    denseLogSoftmax x w b (ix2 r j) = logSoftmaxEntry x w b r j := rfl

/-- A row of the first layer depends on that row of x only. -/
theorem reluEntry_congr (x : (⟨2, ![n, K]⟩ : Shape).Idx → EReal) (x' : (⟨2, ![n', K]⟩ : Shape).Idx → EReal)
    (w : (⟨2, ![K, N]⟩ : Shape).Idx → EReal) (b : (⟨2, ![1, N]⟩ : Shape).Idx → EReal) (r : Fin n) (r' : Fin n') (j : Fin N)
    (h0 : ∀ k, x (ix2 r k) = x' (ix2 r' k)) : reluEntry x w b r j = reluEntry x' w b r' j := by
  unfold reluEntry
  rw [entry_congr x w b x' w b r r' j h0 (fun _ => rfl) rfl]

/-- A row of the second layer depends on that row of x only. -/
theorem logSoftmaxEntry_congr (x : (⟨2, ![n, K]⟩ : Shape).Idx → EReal) (x' : (⟨2, ![n', K]⟩ : Shape).Idx → EReal)
    (w : (⟨2, ![K, N]⟩ : Shape).Idx → EReal) (b : (⟨2, ![1, N]⟩ : Shape).Idx → EReal) (r : Fin n) (r' : Fin n') (j : Fin N)
    (h0 : ∀ k, x (ix2 r k) = x' (ix2 r' k)) : logSoftmaxEntry x w b r j = logSoftmaxEntry x' w b r' j :=
  shifted_congr _ _ r r' j fun c => entry_congr x w b x' w b r r' c h0 (fun _ => rfl) rfl

end Idealize.ShloMosaic.GcnLayers

end
-- ==== Proof.Layer1Body.lean ====
/-
  The first kernel's body at an entry.

  At a grid point the body loads a [5000, 128] block of rows x, the whole weights w : [128, 256] and the bias row
  b : [1, 256], and stores max (x · w + b, 0). Its entry (p, q) is the larger of (∑ k, x (p, k) · w (k, q)) + b (0, q)
  and zero: the first layer's entry of the block.
-/
import proofs.«129245_j16896401342481_1_alg».proof.Proof.Gen.KernelIdeal.Skeleton
import proofs.«129245_j16896401342481_1_alg».proof.Proof.Layers
import Idealize.ShloMosaic.Lib.ValueLayout
import Idealize.ShloMosaic.Lib.Pipeline.Value

noncomputable section

namespace Cert.KernelIdeal.Layer1

open Cert.KernelIdeal Cert.KernelIdeal.Gen Idealize.ShloMosaic Idealize.ShloMosaic.ValueIdx
open Idealize.ShloMosaic.GcnDense Idealize.ShloMosaic.GcnLayers

/-- The product's free left axis reads the result's row. -/
theorem dot_l0 (j : S5000x256.Idx) (q : dot_S5000x128_S128x256_S5000x256_1_0_0_1_n_n.contr.Idx) :
    (dot_S5000x128_S128x256_S5000x256_1_0_0_1_n_n.lhsIdx j q 0).val = (j 0).val := by
  unfold DotDims.lhsIdx
  rw [dif_neg (show ¬(0 : Fin S5000x128.rank) ∈ dot_S5000x128_S128x256_S5000x256_1_0_0_1_n_n.lhsBatch by decide),
    dif_pos (show (0 : Fin S5000x128.rank) ∈ dot_S5000x128_S128x256_S5000x256_1_0_0_1_n_n.lhsNonContracting by decide)]
  rfl

/-- The product's free right axis reads the result's column. -/
theorem dot_r1 (j : S5000x256.Idx) (q : dot_S5000x128_S128x256_S5000x256_1_0_0_1_n_n.contr.Idx) :
    (dot_S5000x128_S128x256_S5000x256_1_0_0_1_n_n.rhsIdx j q 1).val = (j 1).val := by
  unfold DotDims.rhsIdx
  rw [dif_neg (show ¬(1 : Fin S128x256.rank) ∈ dot_S5000x128_S128x256_S5000x256_1_0_0_1_n_n.rhsBatch by decide),
    dif_pos (show (1 : Fin S128x256.rank) ∈ dot_S5000x128_S128x256_S5000x256_1_0_0_1_n_n.rhsNonContracting by decide)]
  rfl

/-- What the body stores, at entry (p, q) of the block: the first layer's entry of the loaded blocks. -/
theorem payload_apply (x0 : Vec Ideal S5000x128 .bf16) (x1 : Vec Ideal S128x256 .bf16) (x2 : Vec Ideal S1x256 .f32)
    (p : Fin 5000) (q : Fin 256) :
    k0_pay1 (F := Ideal) x0 x1 x2 (ix2 p q) = reluEntry x0 x1 x2 p q := by
  unfold k0_pay1 reluEntry
  refine congrArg (fun z => max z (Ideal.ofBits .f32 0x00000000#32)) ?_
  rw [shapeCast_self x0, shapeCast_self x1]
  exact kernel_layer_apply (φ₁ := .bf16) (φ₂ := .bf16) dot_S5000x128_S128x256_S5000x256_1_0_0_1_n_n rfl rfl rfl rfl dot_l0 dot_r1 none
    x0 x1 x2 _ _ p q

end Cert.KernelIdeal.Layer1

end
-- ==== Proof.Layer1Array.lean ====
/-
  The first region's result array.

  The grid has ten points; point t stages rows 5000·t … 5000·t + 4999 of the aggregated features together with the whole weights and
  the bias row, and writes back rows 5000·t … 5000·t + 4999 of the result. A row of the layer depends on the same row of the
  input only, so what point t writes is block t of the layer applied to the whole arrays; the ten blocks tile the
  result, which therefore ends as the layer of the arrays the region found.
-/
import proofs.«129245_j16896401342481_1_alg».proof.Proof.Gen.KernelIdeal.Frame
import proofs.«129245_j16896401342481_1_alg».proof.Proof.Layer1Body
import Idealize.ShloMosaic.Lib.Pipeline.Value

noncomputable section

namespace Cert.KernelIdeal.Layer1

open Cert.KernelIdeal Cert.KernelIdeal.Gen Idealize.ShloMosaic Idealize.ShloMosaic.TcCoe Idealize.SL.Sem
open Idealize.ShloMosaic.ValueIdx Idealize.ShloMosaic.GcnLayers
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every grid point: the rows move with the point, the rest stay at the origin. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 10 :=
  lt_of_lt_of_eq t.isLt (show cfg0.N = 10 from N_0)

/-- Entry (p, k) of the row block at point t is entry (5000·t + p, k) of the input array. -/
theorem rows_block (c : Dev nD) (t : Fin cfg0.N) (ht : t.val < 10) (p : Fin 5000) (k : Fin 128) :
    (iblk0 V c 0 t : Vec Ideal S5000x128 .bf16) (ix2 p k)
      = (V c main_v31 : S50000x128.Idx → EReal) (ix2 ⟨t.val * 5000 + p.val, by have := p.isLt; omega⟩ k) := by
  obtain ⟨e0, e1, -⟩ := block_indices t
  unfold iblk0
  rw [View.read_apply]
  show V c main_v31 _ = V c main_v31 _
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weights' block at every point is the whole weights array. -/
theorem weights_block (c : Dev nD) (t : Fin cfg0.N) :
    (iblk0 V c 1 t : Vec Ideal S128x256 .bf16) = (V c main_v32 : S128x256.Idx → EReal) := by
  obtain ⟨-, -, e2, e3, -⟩ := block_indices t
  funext y
  unfold iblk0
  rw [View.read_apply]
  show V c main_v32 _ = V c main_v32 y
  refine congrArg _ (funext fun a => Fin.ext ?_)
  match a with
  | ⟨0, _⟩ => show win0_1.index t (0 : Fin 2) * 128 + 1 * (y 0).val = (y 0).val; rw [e2]; omega
  | ⟨1, _⟩ => show win0_1.index t (1 : Fin 2) * 256 + 1 * (y 1).val = (y 1).val; rw [e3]; omega

/-- The bias row's block at every point is the whole bias row. -/
theorem bias_block (c : Dev nD) (t : Fin cfg0.N) :
    (iblk0 V c 2 t : Vec Ideal S1x256 .f32) = (V c main_v33 : S1x256.Idx → EReal) := by
  obtain ⟨-, -, -, -, e4, e5, -⟩ := block_indices t
  funext y
  unfold iblk0
  rw [View.read_apply]
  show V c main_v33 _ = V c main_v33 y
  refine congrArg _ (funext fun a => Fin.ext ?_)
  match a with
  | ⟨0, _⟩ => show win0_2.index t (0 : Fin 2) * 1 + 1 * (y 0).val = (y 0).val; rw [e4]; omega
  | ⟨1, _⟩ => show win0_2.index t (1 : Fin 2) * 256 + 1 * (y 1).val = (y 1).val; rw [e5]; omega

/-- The body's result on a block of rows that are rows 5000·tv … of X, at entry y, is the layer of the whole arrays at
    the entry y sits at in the result. -/
theorem block_entry (X : S50000x128.Idx → EReal) (W : S128x256.Idx → EReal) (B : S1x256.Idx → EReal)
    (x0 : Vec Ideal S5000x128 .bf16) (tv : ℕ) (htv : tv < 10)
    (h0 : ∀ (p : Fin 5000) (k : Fin 128), x0 (ix2 p k) = X (ix2 ⟨tv * 5000 + p.val, by have := p.isLt; omega⟩ k))
    (y : S5000x256.Idx) (i : S50000x256.Idx) (hi0 : (i 0).val = tv * 5000 + (y 0).val) (hi1 : (i 1).val = (y 1).val) :
    k0_pay1 (F := Ideal) x0 W B y = denseRelu X W B i := by
  obtain ⟨p, q, rfl⟩ : ∃ (p : Fin 5000) (q : Fin 256), y = ix2 p q := ⟨y 0, y 1, eq_ix2 y⟩
  have hi : i = ix2 ⟨tv * 5000 + p.val, by have := p.isLt; omega⟩ q := funext fun a => Fin.ext (by
    match a with
    | ⟨0, _⟩ => exact hi0
    | ⟨1, _⟩ => exact hi1)
  rw [hi, payload_apply, denseRelu_apply]
  exact reluEntry_congr x0 X W B p _ q (h0 p)

/-- What point t writes back is block t of the layer of the arrays the region found. -/
theorem flushed_eq (c : Dev nD) (t : Fin cfg0.N) :
    (dat0 V c).flushed 3 t = ((cfg0.win 3).blk t).view.read (Elt Ideal)
      (denseRelu (V c main_v31 : S50000x128.Idx → EReal) (V c main_v32 : S128x256.Idx → EReal) (V c main_v33 : S1x256.Idx → EReal)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x256) zero_offsets,
    View.ld_unit_zero (S := S1x256) zero_offsets]
  rw [weights_block V c t, bias_block V c t]
  obtain ⟨-, -, -, -, -, -, e6, e7⟩ := block_indices t
  have ht := point_lt t
  funext j
  show k0_pay1 (F := Ideal) (iblk0 V c 0 t) (V c main_v32) (V c main_v33) j
    = denseRelu (V c main_v31 : S50000x128.Idx → EReal) (V c main_v32 : S128x256.Idx → EReal) (V c main_v33 : S1x256.Idx → EReal)
        (((cfg0.win 3).blk t).view.emb j)
  refine block_entry (V c main_v31) (V c main_v32) (V c main_v33) (iblk0 V c 0 t) t.val ht
    (fun p k => rows_block V c t ht p k) j (((cfg0.win 3).blk t).view.emb j) ?_ ?_
  · show win0_3.index t (0 : Fin 2) * 5000 + 1 * (j 0).val = t.val * 5000 + (j 0).val
    rw [e6]; omega
  · show win0_3.index t (1 : Fin 2) * 256 + 1 * (j 1).val = (j 1).val
    rw [e7]; omega

/-- An index of the result is in point t's block iff each coordinate is in the block's range on its axis. -/
theorem mem_block (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v34).slice (win0_3.rect t)).set ↔ _
  rw [View.set_slice_whole, Rect.mem_set_unit]
  exact Iff.rfl

/-- Every index of the result is in the block of the point its row falls under. -/
theorem covered (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  let t : Fin cfg0.N := ⟨(i 0).val / 5000, by rw [show cfg0.N = 10 from N_0]; omega⟩
  obtain ⟨-, -, -, -, -, -, e6, e7⟩ := block_indices t
  have e6' : win0_3.index t (0 : Fin 2) = (i 0).val / 5000 := e6
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    rw [e6']; omega
  | ⟨1, _⟩ =>
    show win0_3.index t (1 : Fin 2) * 256 ≤ (i 1).val ∧ (i 1).val < win0_3.index t (1 : Fin 2) * 256 + 256
    rw [e7]; omega

/-- The result array after the region is the layer of the arrays the region found. -/
theorem array_eq (c : Dev nD) :
    (dat0 V c).arrAt 3 cfg0.N
      = denseRelu (V c main_v31 : S50000x128.Idx → EReal) (V c main_v32 : S128x256.Idx → EReal) (V c main_v33 : S1x256.Idx → EReal) :=
  (dat0 V c).arrAt_eq_of_cover 3 _ (fun t _ => flushed_eq V c t) covered

end Cert.KernelIdeal.Layer1

end
-- ==== Proof.Layer2Body.lean ====
/-
  The second kernel's body at an entry.

  At a grid point the body loads a [5000, 256] block of rows x, the whole weights w : [256, 40] and the bias row
  b : [1, 40], forms a = x · w + b, takes each row's maximum M (a lane maximum from −∞), subtracts it, and subtracts
  from that the logarithm of the row's sum of exponentials. Its entry (p, q) is
  (a (p, q) − M p) − log (∑ j, exp (a (p, j) − M p)): the second layer's entry of the block.
-/
import proofs.«129245_j16896401342481_1_alg».proof.Proof.Gen.KernelIdeal.Skeleton
import proofs.«129245_j16896401342481_1_alg».proof.Proof.Layers
import proofs.«129245_j16896401342481_1_alg».proof.Proof.LibLogSoftmaxRows
import Idealize.ShloMosaic.Lib.ValueLayout
import Idealize.ShloMosaic.Lib.Pipeline.Value

noncomputable section

namespace Cert.KernelIdeal.Layer2

open Cert.KernelIdeal Cert.KernelIdeal.Gen Idealize.ShloMosaic Idealize.ShloMosaic.ValueIdx
open Idealize.ShloMosaic.GcnDense Idealize.ShloMosaic.GcnLayers Idealize.ShloMosaic.LogSoftmaxRows

/-- The product's free left axis reads the result's row. -/
theorem dot_l0 (j : S5000x40.Idx) (q : dot_S5000x256_S256x40_S5000x40_1_0_0_1_n_n.contr.Idx) :
    (dot_S5000x256_S256x40_S5000x40_1_0_0_1_n_n.lhsIdx j q 0).val = (j 0).val := by
  unfold DotDims.lhsIdx
  rw [dif_neg (show ¬(0 : Fin S5000x256.rank) ∈ dot_S5000x256_S256x40_S5000x40_1_0_0_1_n_n.lhsBatch by decide),
    dif_pos (show (0 : Fin S5000x256.rank) ∈ dot_S5000x256_S256x40_S5000x40_1_0_0_1_n_n.lhsNonContracting by decide)]
  rfl

/-- The product's free right axis reads the result's column. -/
theorem dot_r1 (j : S5000x40.Idx) (q : dot_S5000x256_S256x40_S5000x40_1_0_0_1_n_n.contr.Idx) :
    (dot_S5000x256_S256x40_S5000x40_1_0_0_1_n_n.rhsIdx j q 1).val = (j 1).val := by
  unfold DotDims.rhsIdx
  rw [dif_neg (show ¬(1 : Fin S256x40.rank) ∈ dot_S5000x256_S256x40_S5000x40_1_0_0_1_n_n.rhsBatch by decide),
    dif_pos (show (1 : Fin S256x40.rank) ∈ dot_S5000x256_S256x40_S5000x40_1_0_0_1_n_n.rhsNonContracting by decide)]
  rfl

/-- What the body stores, at entry (p, q) of the block: the second layer's entry of the loaded blocks. -/
theorem payload_apply (x0 : Vec Ideal S5000x256 .bf16) (x1 : Vec Ideal S256x40 .bf16) (x2 : Vec Ideal S1x40 .f32)
    (p : Fin 5000) (q : Fin 40) :
    k1_pay1 (F := Ideal) x0 x1 x2 (ix2 p q) = logSoftmaxEntry x0 x1 x2 p q := by
  unfold k1_pay1
  refine (kernel_apply _ _ _ _ _ _ _ p q).trans ?_
  unfold logSoftmaxEntry
  refine shifted_congr _ _ p p q fun c => ?_
  rw [shapeCast_self x0, shapeCast_self x1]
  exact kernel_layer_apply (φ₁ := .bf16) (φ₂ := .bf16) dot_S5000x256_S256x40_S5000x40_1_0_0_1_n_n rfl rfl rfl rfl dot_l0 dot_r1 none x0 x1 x2 _ _ p c

end Cert.KernelIdeal.Layer2

end
-- ==== Proof.Layer2Array.lean ====
/-
  The second region's result array.

  The grid has ten points; point t stages rows 5000·t … 5000·t + 4999 of the aggregated hidden features together with the whole weights and
  the bias row, and writes back rows 5000·t … 5000·t + 4999 of the result. A row of the layer depends on the same row of the
  input only, so what point t writes is block t of the layer applied to the whole arrays; the ten blocks tile the
  result, which therefore ends as the layer of the arrays the region found.
-/
import proofs.«129245_j16896401342481_1_alg».proof.Proof.Gen.KernelIdeal.Frame
import proofs.«129245_j16896401342481_1_alg».proof.Proof.Layer2Body
import Idealize.ShloMosaic.Lib.Pipeline.Value

noncomputable section

namespace Cert.KernelIdeal.Layer2

open Cert.KernelIdeal Cert.KernelIdeal.Gen Idealize.ShloMosaic Idealize.ShloMosaic.TcCoe Idealize.SL.Sem
open Idealize.ShloMosaic.ValueIdx Idealize.ShloMosaic.GcnLayers
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every grid point: the rows move with the point, the rest stay at the origin. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 10 :=
  lt_of_lt_of_eq t.isLt (show cfg1.N = 10 from N_1)

/-- Entry (p, k) of the row block at point t is entry (5000·t + p, k) of the input array. -/
theorem rows_block (c : Dev nD) (t : Fin cfg1.N) (ht : t.val < 10) (p : Fin 5000) (k : Fin 256) :
    (iblk1 V c 0 t : Vec Ideal S5000x256 .bf16) (ix2 p k)
      = (V c main_v51 : S50000x256.Idx → EReal) (ix2 ⟨t.val * 5000 + p.val, by have := p.isLt; omega⟩ k) := by
  obtain ⟨e0, e1, -⟩ := block_indices t
  unfold iblk1
  rw [View.read_apply]
  show V c main_v51 _ = V c main_v51 _
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 256 + 1 * k.val = k.val; rw [e1]; omega

/-- The weights' block at every point is the whole weights array. -/
theorem weights_block (c : Dev nD) (t : Fin cfg1.N) :
    (iblk1 V c 1 t : Vec Ideal S256x40 .bf16) = (V c main_v52 : S256x40.Idx → EReal) := by
  obtain ⟨-, -, e2, e3, -⟩ := block_indices t
  funext y
  unfold iblk1
  rw [View.read_apply]
  show V c main_v52 _ = V c main_v52 y
  refine congrArg _ (funext fun a => Fin.ext ?_)
  match a with
  | ⟨0, _⟩ => show win1_1.index t (0 : Fin 2) * 256 + 1 * (y 0).val = (y 0).val; rw [e2]; omega
  | ⟨1, _⟩ => show win1_1.index t (1 : Fin 2) * 40 + 1 * (y 1).val = (y 1).val; rw [e3]; omega

/-- The bias row's block at every point is the whole bias row. -/
theorem bias_block (c : Dev nD) (t : Fin cfg1.N) :
    (iblk1 V c 2 t : Vec Ideal S1x40 .f32) = (V c main_v53 : S1x40.Idx → EReal) := by
  obtain ⟨-, -, -, -, e4, e5, -⟩ := block_indices t
  funext y
  unfold iblk1
  rw [View.read_apply]
  show V c main_v53 _ = V c main_v53 y
  refine congrArg _ (funext fun a => Fin.ext ?_)
  match a with
  | ⟨0, _⟩ => show win1_2.index t (0 : Fin 2) * 1 + 1 * (y 0).val = (y 0).val; rw [e4]; omega
  | ⟨1, _⟩ => show win1_2.index t (1 : Fin 2) * 40 + 1 * (y 1).val = (y 1).val; rw [e5]; omega

/-- The body's result on a block of rows that are rows 5000·tv … of X, at entry y, is the layer of the whole arrays at
    the entry y sits at in the result. -/
theorem block_entry (X : S50000x256.Idx → EReal) (W : S256x40.Idx → EReal) (B : S1x40.Idx → EReal)
    (x0 : Vec Ideal S5000x256 .bf16) (tv : ℕ) (htv : tv < 10)
    (h0 : ∀ (p : Fin 5000) (k : Fin 256), x0 (ix2 p k) = X (ix2 ⟨tv * 5000 + p.val, by have := p.isLt; omega⟩ k))
    (y : S5000x40.Idx) (i : S50000x40.Idx) (hi0 : (i 0).val = tv * 5000 + (y 0).val) (hi1 : (i 1).val = (y 1).val) :
    k1_pay1 (F := Ideal) x0 W B y = denseLogSoftmax X W B i := by
  obtain ⟨p, q, rfl⟩ : ∃ (p : Fin 5000) (q : Fin 40), y = ix2 p q := ⟨y 0, y 1, eq_ix2 y⟩
  have hi : i = ix2 ⟨tv * 5000 + p.val, by have := p.isLt; omega⟩ q := funext fun a => Fin.ext (by
    match a with
    | ⟨0, _⟩ => exact hi0
    | ⟨1, _⟩ => exact hi1)
  rw [hi, payload_apply, denseLogSoftmax_apply]
  exact logSoftmaxEntry_congr x0 X W B p _ q (h0 p)

/-- What point t writes back is block t of the layer of the arrays the region found. -/
theorem flushed_eq (c : Dev nD) (t : Fin cfg1.N) :
    (dat1 V c).flushed 3 t = ((cfg1.win 3).blk t).view.read (Elt Ideal)
      (denseLogSoftmax (V c main_v51 : S50000x256.Idx → EReal) (V c main_v52 : S256x40.Idx → EReal) (V c main_v53 : S1x40.Idx → EReal)) := by
  show (cfg1.win 3).cut (grid1.coords t) ((dat1 V c).after 3 t) = _
  rw [after1_3]
  unfold out1_3
  rw [View.canon_unit_zero zero_offsets]
  simp only [View.ld_unit_zero (S := S5000x256) zero_offsets, View.ld_unit_zero (S := S256x40) zero_offsets,
    View.ld_unit_zero (S := S1x40) zero_offsets]
  rw [weights_block V c t, bias_block V c t]
  obtain ⟨-, -, -, -, -, -, e6, e7⟩ := block_indices t
  have ht := point_lt t
  funext j
  show k1_pay1 (F := Ideal) (iblk1 V c 0 t) (V c main_v52) (V c main_v53) j
    = denseLogSoftmax (V c main_v51 : S50000x256.Idx → EReal) (V c main_v52 : S256x40.Idx → EReal) (V c main_v53 : S1x40.Idx → EReal)
        (((cfg1.win 3).blk t).view.emb j)
  refine block_entry (V c main_v51) (V c main_v52) (V c main_v53) (iblk1 V c 0 t) t.val ht
    (fun p k => rows_block V c t ht p k) j (((cfg1.win 3).blk t).view.emb j) ?_ ?_
  · show win1_3.index t (0 : Fin 2) * 5000 + 1 * (j 0).val = t.val * 5000 + (j 0).val
    rw [e6]; omega
  · show win1_3.index t (1 : Fin 2) * 40 + 1 * (j 1).val = (j 1).val
    rw [e7]; omega

/-- An index of the result is in point t's block iff each coordinate is in the block's range on its axis. -/
theorem mem_block (t : Fin cfg1.N) (i : S50000x40.Idx) :
    i ∈ ((cfg1.win 3).blk t).view.set ↔ ∀ a : Fin 2, win1_3.index t a * S5000x40.size a ≤ (i a).val
      ∧ (i a).val < win1_3.index t a * S5000x40.size a + S5000x40.size a := by
  show i ∈ ((View.whole main_v54).slice (win1_3.rect t)).set ↔ _
  rw [View.set_slice_whole, Rect.mem_set_unit]
  exact Iff.rfl

/-- Every index of the result is in the block of the point its row falls under. -/
theorem covered (i : S50000x40.Idx) :
    ∃ t : Fin cfg1.N, (cfg1.win 3).flush t = true ∧ i ∈ ((cfg1.win 3).blk t).view.set := by
  have hi0 : (i 0).val < 50000 := (i 0).isLt
  have hi1 : (i 1).val < 40 := (i 1).isLt
  let t : Fin cfg1.N := ⟨(i 0).val / 5000, by rw [show cfg1.N = 10 from N_1]; omega⟩
  obtain ⟨-, -, -, -, -, -, e6, e7⟩ := block_indices t
  have e6' : win1_3.index t (0 : Fin 2) = (i 0).val / 5000 := e6
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    rw [e6']; omega
  | ⟨1, _⟩ =>
    show win1_3.index t (1 : Fin 2) * 40 ≤ (i 1).val ∧ (i 1).val < win1_3.index t (1 : Fin 2) * 40 + 40
    rw [e7]; omega

/-- The result array after the region is the layer of the arrays the region found. -/
theorem array_eq (c : Dev nD) :
    (dat1 V c).arrAt 3 cfg1.N
      = denseLogSoftmax (V c main_v51 : S50000x256.Idx → EReal) (V c main_v52 : S256x40.Idx → EReal) (V c main_v53 : S1x40.Idx → EReal) :=
  (dat1 V c).arrAt_eq_of_cover 3 _ (fun t _ => flushed_eq V c t) covered

end Cert.KernelIdeal.Layer2

end
-- ==== Proof.RefLayers.lean ====
/-
  The reference's two layers as functions of whole arrays.

  After each aggregation the reference multiplies by the weights with a dot_general, adds the bias spread from
  [N] through [1, N] down the rows, and applies relu (a maximum with the zero constant) or the row-wise log_softmax
  (reduce by max from −∞, subtract, exponentiate, reduce by add from zero, logarithm, subtract). Read at an entry,
  the first is the larger of the dense layer's entry and zero and the second the shifted log-softmax of the dense
  layer's row: the same two functions the kernel's regions compute.
-/
import proofs.«129245_j16896401342481_1_alg».proof.Proof.RefRead
import proofs.«129245_j16896401342481_1_alg».proof.Proof.Layers

noncomputable section

namespace Cert.ReferenceIdeal.RefLayers

open Cert.ReferenceIdeal Cert.ReferenceIdeal.Gen Cert.ReferenceIdeal.Read
open Idealize.ShloMosaic Idealize.ShloMosaic.ValueIdx
open Idealize.ShloMosaic.GcnDense Idealize.ShloMosaic.GcnLayers Idealize.ShloMosaic.LogSoftmaxRows

variable (x0 : (⟨S50000x128, .f32⟩ : BufTy).Contents (Elt Ideal)) (x1 : (⟨S128x256, .f32⟩ : BufTy).Contents (Elt Ideal))
  (x2 : (⟨S256, .f32⟩ : BufTy).Contents (Elt Ideal)) (x3 : (⟨S256x40, .f32⟩ : BufTy).Contents (Elt Ideal))
  (x4 : (⟨S40, .f32⟩ : BufTy).Contents (Elt Ideal)) (x5 x6 : (⟨S800000, .i32⟩ : BufTy).Contents (Elt Ideal))

/-- The second aggregation as a function of the hidden features H: the rows of H scaled by the source norms, gathered
    along the edges' sources, added up at the edges' targets, and scaled by the target norms. -/
def aggregateHidden (H : FVec Ideal S50000x256 .f32) (x5 x6 : (⟨S800000, .i32⟩ : BufTy).Contents (Elt Ideal)) :
    FVec Ideal S50000x256 .f32 :=
  mulf (F := Ideal) (φ := .f32) (Host.scatterAdd (F := Ideal) (φ := .f32) scatter_S50000x256_S800000x1_S800000x256_1_0_0_1 (val_main_v61 (F := Ideal)) (val_main_v62 (F := Ideal) x6)
      (Host.gather gather_S50000x256_S800000x1_S800000x256_1_0_n_n_0_1_1256 (mulf (F := Ideal) (φ := .f32) H (val_main_v52 (F := Ideal) x5))
        (val_main_v59 (F := Ideal) x5)))
    (val_main_v65 (F := Ideal) x6)

/-- The reference's second aggregation is that function of its hidden layer. -/
theorem aggregated_eq :
    val_main_v66 (F := Ideal) x0 x1 x2 x5 x6 = aggregateHidden (val_main_v35 (F := Ideal) x0 x1 x2 x5 x6) x5 x6 := rfl

/-- The hidden layer: relu of the aggregated features times the weights plus the bias. -/
theorem hidden_eq :
    val_main_v35 (F := Ideal) x0 x1 x2 x5 x6
      = denseRelu (val_main_v30 (F := Ideal) x0 x5 x6) x1 (val_main_v32 (F := Ideal) x2) := by
  funext i
  obtain ⟨r, j, rfl⟩ : ∃ (r : Fin 50000) (j : Fin 256), i = ix2 r j := ⟨i 0, i 1, eq_ix2 i⟩
  unfold val_main_v35 val_main_v34 val_main_v31 val_main_v33 val_main_call0_v0 val_main_call0_cst
  rw [maximumf_apply, denseRelu_apply]
  unfold reluEntry
  refine congrArg₂ max ?_ ?_
  · exact host_layer_apply (φ₁ := .f32) (φ₂ := .f32) dot_S50000x128_S128x256_S50000x256_1_0_0_1_n_n rfl rfl rfl rfl
      lhs_main_v31_0 rhs_main_v31_1 none (val_main_v30 (F := Ideal) x0 x5 x6) x1 (val_main_v32 (F := Ideal) x2) _ r j
  · rw [broadcastInDim_apply _ _ _ (ix2 r j) (fun a => a.elim0) (fun a => a.elim0), constant_apply]

/-- The output layer: the row-wise log-softmax of the aggregated hidden features times the weights plus the bias. -/
theorem output_eq :
    val_main_v71 (F := Ideal) x0 x1 x2 x3 x4 x5 x6
      = denseLogSoftmax (val_main_v66 (F := Ideal) x0 x1 x2 x5 x6) x3 (val_main_v68 (F := Ideal) x4) := by
  funext i
  obtain ⟨r, j, rfl⟩ : ∃ (r : Fin 50000) (j : Fin 40), i = ix2 r j := ⟨i 0, i 1, eq_ix2 i⟩
  unfold val_main_v71 val_main_call1_v10 val_main_call1_v9 val_main_call1_v8 val_main_call1_v7 val_main_call1_cst_1
    val_main_call1_v6 val_main_call1_v5 val_main_call1_v4 val_main_call1_v3 val_main_call1_v2 val_main_call1_v1
    val_main_call1_cst_0 val_main_call1_v0 val_main_call1_cst
  refine (host_apply (val_main_v70 (F := Ideal) x0 x1 x2 x3 x4 x5 x6) _ (by decide) _ _ _ _ r j).trans ?_
  rw [denseLogSoftmax_apply]
  unfold logSoftmaxEntry
  refine shifted_congr _ _ r r j fun c => ?_
  unfold val_main_v70 val_main_v67 val_main_v69
  exact host_layer_apply (φ₁ := .f32) (φ₂ := .f32) dot_S50000x256_S256x40_S50000x40_1_0_0_1_n_n rfl rfl rfl rfl
    lhs_main_v67_0 rhs_main_v67_1 none (val_main_v66 (F := Ideal) x0 x1 x2 x5 x6) x3 (val_main_v68 (F := Ideal) x4) _ r c

end Cert.ReferenceIdeal.RefLayers

end
-- ==== Proof.KernelValue.lean ====
/-
  The idealized kernel's result as a function of its arguments.

  @main aggregates the features over the graph (each node's row scaled by its out-degree norm, gathered along the
  edges, added up at the edges' targets, scaled by the in-degree norm), hands the aggregate, the weights and the
  bias row to the first region, aggregates that region's result in the same way with the same two norms, and hands
  it with the second weights and bias to the second region. A change of float format is the identity on the extended
  reals, so the first region finds exactly the reference's first aggregate and returns the reference's hidden layer;
  the second stretch of host operations is the reference's second aggregation applied to it (the reference computes
  the two norms a second time, to the same values), and the second region returns the reference's log-softmax layer.
-/
import proofs.«129245_j16896401342481_1_alg».proof.Proof.KernelRun
import proofs.«129245_j16896401342481_1_alg».proof.Proof.Layer1Array
import proofs.«129245_j16896401342481_1_alg».proof.Proof.Layer2Array
import proofs.«129245_j16896401342481_1_alg».proof.Proof.RefLayers
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.GcnDense Idealize.ShloMosaic.GcnLayers
open Cert.ReferenceIdeal.Read (val_main_v30 val_main_v32 val_main_v35 val_main_v46 val_main_v50 val_main_v66 val_main_v68 val_main_v71)
open Cert.ReferenceIdeal.RefLayers (aggregateHidden hidden_eq output_eq aggregated_eq)

variable (m : (ℓ : Loc nD τ sig) → Buf (Elt Ideal) ℓ) (ρ : Dev nD → PrngReg) (c : Dev nD)

/-- Rounding to a narrower float format is the identity on the extended reals. -/
theorem truncf_id {s : Shape} (X : FVec Ideal s .f32) (h : (FTy.bf16).bits < (FTy.f32).bits) :
    (truncf .bf16 X h : s.Idx → EReal) = X := rfl

/-! ## What the first region finds -/

/-- The first region's row operand is the reference's first aggregate. -/
theorem features_in : (V1 m ρ c main_v31 : S50000x128.Idx → EReal) = val_main_v30 (F := Ideal) (m ((c : Thread nD τ).loc main_arg0)) (m ((c : Thread nD τ).loc main_arg5)) (m ((c : Thread nD τ).loc main_arg6)) := by
  have h : V1 m ρ c main_v31 = truncf (F := Ideal) (φ := .f32) .bf16 (val_main_v30 (F := Ideal) (m ((c : Thread nD τ).loc main_arg0)) (m ((c : Thread nD τ).loc main_arg5)) (m ((c : Thread nD τ).loc main_arg6))) := by
    show StableHlo.after hostOps0 (W0 m ρ c) (Proc.devRef .tc main_v31) = _
    after_results_simp
    rfl
  exact h.trans (truncf_id _ _)

/-- Its weights operand is the first weights argument. -/
theorem weights_in : (V1 m ρ c main_v32 : S128x256.Idx → EReal) = (m ((c : Thread nD τ).loc main_arg1)) := by
  have h : V1 m ρ c main_v32 = truncf (F := Ideal) (φ := .f32) .bf16 ((m ((c : Thread nD τ).loc main_arg1)) : S128x256.Idx → EReal) := by
    show StableHlo.after hostOps0 (W0 m ρ c) (Proc.devRef .tc main_v32) = _
    after_results_simp
  exact h.trans (truncf_id _ _)

/-- Its bias operand is the first bias set under a unit axis, as the reference sets it by a broadcast. -/
theorem bias_in : (V1 m ρ c main_v33 : S1x256.Idx → EReal) = val_main_v32 (F := Ideal) (m ((c : Thread nD τ).loc main_arg2)) := by
  have h : V1 m ρ c main_v33 = shapeCast S1x256 ((m ((c : Thread nD τ).loc main_arg2)) : S256.Idx → EReal) Facts₀.shapeCasts_S256_S1x256 := by
    show StableHlo.after hostOps0 (W0 m ρ c) (Proc.devRef .tc main_v33) = _
    after_results_simp
    rfl
  exact h.trans (row_reshape_eq_broadcast (N := 256) _ _ _)

/-! ## What the first region leaves, and what the second stretch reads -/

/-- The first region's result array is the reference's hidden layer. -/
theorem hidden_out : (W2 m ρ c (Proc.devRef .tc main_v34) : S50000x256.Idx → EReal) = val_main_v35 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  have h : (W2 m ρ c (Proc.devRef .tc main_v34) : S50000x256.Idx → EReal) = _ :=
    (W2_arr m ρ c 3).trans (Layer1.array_eq (V1 m ρ) c)
  rw [features_in m ρ c, weights_in m ρ c, bias_in m ρ c] at h
  exact h.trans (hidden_eq _ _ _ _ _).symm

/-- The out-degree norm the second stretch reads is the one the reference computes again. -/
theorem norm_src : (W2 m ρ c (Proc.devRef .tc main_v10) : S50000.Idx → EReal) = val_main_v46 (F := Ideal) (m ((c : Thread nD τ).loc main_arg5)) := by
  refine (W2_of_ne m ρ c main_v10 (by decide)).trans ?_
  show StableHlo.after hostOps0 (W0 m ρ c) (Proc.devRef .tc main_v10) = _
  after_results_simp
  rfl

/-- The in-degree norm the second stretch reads is the one the reference computes again. -/
theorem norm_dst : (W2 m ρ c (Proc.devRef .tc main_v14) : S50000.Idx → EReal) = val_main_v50 (F := Ideal) (m ((c : Thread nD τ).loc main_arg6)) := by
  refine (W2_of_ne m ρ c main_v14 (by decide)).trans ?_
  show StableHlo.after hostOps0 (W0 m ρ c) (Proc.devRef .tc main_v14) = _
  after_results_simp
  rfl

/-- No operation before the second stretch writes an argument. -/
theorem kept3 : W2 m ρ c (Proc.devRef .tc main_arg3) = (m ((c : Thread nD τ).loc main_arg3)) := by
  refine (W2_of_ne m ρ c main_arg3 (by decide)).trans ?_
  show StableHlo.after hostOps0 (W0 m ρ c) (Proc.devRef .tc main_arg3) = _
  after_results_simp <;> rfl
theorem kept4 : W2 m ρ c (Proc.devRef .tc main_arg4) = (m ((c : Thread nD τ).loc main_arg4)) := by
  refine (W2_of_ne m ρ c main_arg4 (by decide)).trans ?_
  show StableHlo.after hostOps0 (W0 m ρ c) (Proc.devRef .tc main_arg4) = _
  after_results_simp <;> rfl
theorem kept5 : W2 m ρ c (Proc.devRef .tc main_arg5) = (m ((c : Thread nD τ).loc main_arg5)) := by
  refine (W2_of_ne m ρ c main_arg5 (by decide)).trans ?_
  show StableHlo.after hostOps0 (W0 m ρ c) (Proc.devRef .tc main_arg5) = _
  after_results_simp <;> rfl
theorem kept6 : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  after_results_simp <;> rfl

/-! ## What the second region finds -/

/-- The second region's row operand is the reference's second aggregate. -/
theorem hidden_in : (V3 m ρ c main_v51 : S50000x256.Idx → EReal) = val_main_v66 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  have h : V3 m ρ c main_v51
      = truncf (F := Ideal) (φ := .f32) .bf16 (aggregateHidden (W2 m ρ c (Proc.devRef .tc main_v34)) (m ((c : Thread nD τ).loc main_arg5)) (m ((c : Thread nD τ).loc main_arg6))) := by
    show StableHlo.after hostOps1 (W2 m ρ c) (Proc.devRef .tc main_v51) = _
    after_results_simp
    rw [norm_src m ρ c, norm_dst m ρ c, kept5 m ρ c, kept6 m ρ c]
    rfl
  rw [hidden_out m ρ c] at h
  exact h.trans ((truncf_id _ _).trans (aggregated_eq _ _ _ _ _).symm)

/-- Its weights operand is the second weights argument. -/
theorem weights2_in : (V3 m ρ c main_v52 : S256x40.Idx → EReal) = (m ((c : Thread nD τ).loc main_arg3)) := by
  have h : V3 m ρ c main_v52 = truncf (F := Ideal) (φ := .f32) .bf16 ((m ((c : Thread nD τ).loc main_arg3)) : S256x40.Idx → EReal) := by
    show StableHlo.after hostOps1 (W2 m ρ c) (Proc.devRef .tc main_v52) = _
    after_results_simp
    rw [kept3 m ρ c]
  exact h.trans (truncf_id _ _)

/-- Its bias operand is the second bias set under a unit axis. -/
theorem bias2_in : (V3 m ρ c main_v53 : S1x40.Idx → EReal) = val_main_v68 (F := Ideal) (m ((c : Thread nD τ).loc main_arg4)) := by
  have h : V3 m ρ c main_v53 = shapeCast S1x40 ((m ((c : Thread nD τ).loc main_arg4)) : S40.Idx → EReal) Facts₀.shapeCasts_S40_S1x40 := by
    show StableHlo.after hostOps1 (W2 m ρ c) (Proc.devRef .tc main_v53) = _
    after_results_simp
    rw [kept4 m ρ c]
    rfl
  exact h.trans (row_reshape_eq_broadcast (N := 40) _ _ _)

/-! ## The result -/

/-- The result array after the run is the reference's result as a function of the arguments. -/
theorem result_eq : (W4 m ρ c (Proc.devRef .tc main_v54) : S50000x40.Idx → EReal) = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h : (W4 m ρ c (Proc.devRef .tc main_v54) : S50000x40.Idx → EReal) = _ :=
    (W4_arr m ρ c 3).trans (Layer2.array_eq (V3 m ρ) c)
  rw [hidden_in m ρ c, weights2_in m ρ c, bias2_in m ρ c] at h
  exact h.trans (output_eq _ _ _ _ _ _ _).symm

end Cert.KernelIdeal.Whole

end
-- ==== Proof.lean ====
/-
  A two-layer graph convolution network, a Pallas kernel per dense layer against plain jnp.

  Both programs aggregate node features over a graph of 50000 nodes and 800000 edges with symmetric degree
  normalisation (rows scaled by max (out-degree, 1)^(-1/2), gathered along the edges, summed at the edges' targets,
  scaled by max (in-degree, 1)^(-1/2)), apply a dense layer with relu, aggregate again, and apply a dense layer with a
  row-wise log-softmax. In the kernel each dense layer is a pallas_call over ten blocks of 5000 rows that holds the
  whole weights and bias: x · w + b with max (·, 0) in the first, and in the second the row maximum M, the shifted
  row a − M, and (a − M) − log Σ exp (a − M). The reference does the same with dot_general, a broadcast bias,
  jax.nn.relu and jax.nn.log_softmax. On the extended reals a change of float format is the identity, a matrix
  product into a zero accumulator and a dot_general are the same sum over the contracted index, a lane reduction and
  a host reduction are the same fold or sum, and one more maximum with −∞ changes nothing; a row of either layer
  depends on the same row of its input only, so the ten row blocks of a region assemble to the layer of the whole
  array. The aggregations are the same host operations in both programs, and the reference's second computation of
  the two degree norms repeats the first. So the two results are one function of the arguments, index by index; no
  algebraic law beyond these readings is needed, and the finiteness of the inputs is not used.
-/
import proofs.«129245_j16896401342481_1_alg».proof.Defs
import proofs.«129245_j16896401342481_1_alg».proof.Proof.Gen.Kernel
import proofs.«129245_j16896401342481_1_alg».proof.Proof.Gen.Kernel.Frame
import proofs.«129245_j16896401342481_1_alg».proof.Proof.Gen.KernelIdeal
import proofs.«129245_j16896401342481_1_alg».proof.Proof.Gen.KernelIdeal.Frame
import proofs.«129245_j16896401342481_1_alg».proof.Proof.Gen.ReferenceIdeal
import proofs.«129245_j16896401342481_1_alg».proof.Proof.Gen.Pre_finite_inputs
import proofs.«129245_j16896401342481_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at the reference's function of the arguments. -/
theorem algebraic : Cert.algebraic_KernelIdeal_ReferenceIdeal := by
  intro m ρ m' ρ' _ hagree
  refine ⟨fun c => Cert.ReferenceIdeal.Read.val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Whole.result_eq m ρ c), (h c).2⟩)
      (Cert.KernelIdeal.Result.run_result m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v71_eq m' c).trans ?_
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
